-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x128 .f32) (main_arg4 : FVec F S128 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 86
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S50000x128, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run, with its result read.

  The program is seven segments: three stretches of host operations, layer 1's region, a stretch, layer 2's region, a last
  stretch. Each segment starts from the buffer contents the previous one leaves, so the contents at the end are a fold
  from the launch memory through all seven; the last boundary's contents are `W7`. Every weakly fair execution terminates
  without a fault in a state whose unscoped buffers hold `W7`: in particular the result buffer holds `W7` at the result,
  and the six argument arrays are as launched.
-/
import proofs.«169751_j70755291234308_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem kernel_run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn

end
-- ==== Proof.Graph.lean ====
/-
  The graph side of the two layers, as functions of whole arrays.

  Both programs treat the edge list the same way. To the 800000 edges they append one self loop per node, giving 850000
  source nodes `srcs` and target nodes `dsts`. A node's degree `deg` counts the edges that end in it, `dinv` is its inverse
  square root where the degree is positive, and an edge's weight `nrm` is `dinv` at its source times `dinv` at its target
  (node indices are wrapped once by the node count if negative, as the gather is printed). A layer's aggregation takes the
  rows `h` of all nodes, gathers each edge's source row, scales it by the edge's weight, adds the scaled rows into the
  target node's row, and adds the bias: `agg256` for layer 1 (256 columns), `agg128` for layer 2 (128 columns).
  The aggregations take the edge lists and weights as arguments, so that they can be applied to buffers a program
  computed once and kept, or computed again.
-/
import proofs.«169751_j70755291234308_1_alg».proof.Proof.Gen.KernelIdeal

noncomputable section

namespace Cert.Gcn

open Idealize.ShloMosaic Cert.KernelIdeal Cert.KernelIdeal.Facts₀ Cert.KernelIdeal.Facts

variable {F : FTy → Type} [FloatOps F]

/-- The edges' source nodes, then every node once. -/
def srcs (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' target nodes, then every node once. -/
def dsts (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node's degree: one for every edge, self loops included, that ends in it. -/
def deg (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 dst) (broadcastInDim S850000 ![] bcast_S_S850000 (constant (F := F) S_ .f32 0x3F800000#32))

/-- Where a degree is greater than zero. -/
def positive (d : (⟨S50000, .f32⟩ : BufTy).Contents (Elt F)) : (⟨S50000, .i1⟩ : BufTy).Contents (Elt F) :=
  cmpf .ogt d (broadcastInDim S50000 ![] bcast_S_S50000 (constant (F := F) S_ .f32 0x00000000#32))

/-- A mask's choice between per-node values `a` and one scalar `z` for every node. -/
def orElse (p : (⟨S50000, .i1⟩ : BufTy).Contents (Elt F)) (a : (⟨S50000, .f32⟩ : BufTy).Contents (Elt F))
    (z : (⟨S_, .f32⟩ : BufTy).Contents (Elt F)) : (⟨S50000, .f32⟩ : BufTy).Contents (Elt F) :=
  select p a (broadcastInDim S50000 ![] bcast_S_S50000 (id z))

/-- The inverse square root of every degree, as the host computes it. -/
def invSqrt (d : (⟨S50000, .f32⟩ : BufTy).Contents (Elt F)) : (⟨S50000, .f32⟩ : BufTy).Contents (Elt F) :=
  Host.rsqrt d

/-- The inverse square root of a positive degree, zero otherwise. -/
def dinv (d : (⟨S50000, .f32⟩ : BufTy).Contents (Elt F)) : (⟨S50000, .f32⟩ : BufTy).Contents (Elt F) :=
  orElse (positive d) (invSqrt d) (constant (F := F) S_ .f32 0x00000000#32)

/-- A node index as the gathers read it: a negative one is moved up once by the node count. -/
def wrap (ix : (⟨S850000, .i32⟩ : BufTy).Contents (Elt F)) : (⟨S850000x1, .i32⟩ : BufTy).Contents (Elt F) :=
  broadcastInDim S850000x1 ![0] bcast_S850000_S850000x1_0 (select (cmpi .slt ix (broadcastInDim S850000 ![] bcast_S_S850000 (constantI S_ 32 0#32))) (addi ix (broadcastInDim S850000 ![] bcast_S_S850000 (constantI S_ 32 50000#32))) ix)

/-- An edge's weight from per-node factors `dv`: the factor at its source times the factor at its target. -/
def weights (dv : (⟨S50000, .f32⟩ : BufTy).Contents (Elt F)) (src dst : (⟨S850000, .i32⟩ : BufTy).Contents (Elt F)) :
    (⟨S850000, .f32⟩ : BufTy).Contents (Elt F) :=
  mulf (Host.gather gather_S50000_S850000x1_S850000_n_0_n_n_0_1_1 dv (wrap (F := F) src)) (Host.gather gather_S50000_S850000x1_S850000_n_0_n_n_0_1_1 dv (wrap (F := F) dst))

/-- An edge's weight: `dinv` of the degree at its source times `dinv` of the degree at its target. -/
def nrm (src dst : (⟨S850000, .i32⟩ : BufTy).Contents (Elt F)) : (⟨S850000, .f32⟩ : BufTy).Contents (Elt F) :=
  weights (dinv (deg (F := F) dst)) src dst

/-- Layer 1's aggregation: every edge's source row of `h`, scaled by the edge's weight, added into its target row; plus the bias. -/
def agg256 (h : (⟨S50000x256, .f32⟩ : BufTy).Contents (Elt F)) (src dst : (⟨S850000, .i32⟩ : BufTy).Contents (Elt F))
    (nr : (⟨S850000, .f32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant (F := F) S_ .f32 0x00000000#32)) (broadcastInDim S850000x1 ![0] bcast_S850000_S850000x1_0 dst) (mulf (Host.gather gather_S50000x256_S850000x1_S850000x256_1_0_n_n_0_1_1256 h (wrap (F := F) src)) (broadcastInDim S850000x256 ![0, 1] bcast_S850000x1_S850000x256_0_1 (broadcastInDim S850000x1 ![0] bcast_S850000_S850000x1_0 nr)))) (broadcastInDim S50000x256 ![0, 1] bcast_S1x256_S50000x256_0_1 (broadcastInDim S1x256 ![1] bcast_S256_S1x256_1 b))

/-- Layer 2's aggregation: the same on rows of 128 columns. -/
def agg128 (h : (⟨S50000x128, .f32⟩ : BufTy).Contents (Elt F)) (src dst : (⟨S850000, .i32⟩ : BufTy).Contents (Elt F))
    (nr : (⟨S850000, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 dst) (mulf (Host.gather gather_S50000x128_S850000x1_S850000x128_1_0_n_n_0_1_1128 h (wrap (F := F) src)) (broadcastInDim S850000x128 ![0, 1] bcast_S850000x1_S850000x128_0_1 (broadcastInDim S850000x1 ![0] bcast_S850000_S850000x1_0 nr)))) (broadcastInDim S50000x128 ![0, 1] bcast_S1x128_S50000x128_0_1 (broadcastInDim S1x128 ![1] bcast_S128_S1x128_1 b))

end Cert.Gcn

end
-- ==== Proof.Layers.lean ====
/-
  The two layers as functions of whole arrays, over the extended reals.

  A layer is a linear map followed by the graph aggregation (Graph.lean). The linear map is a matrix product: entry
  `(i, j)` of `lin1 x w` is the sum over `k` of `x i k * w k j` (128 terms), and of `lin2 x w` likewise (256 terms).
  `hidden` is layer 1 applied to the node features, `gcn` is layer 2 applied to `hidden`: the function both programs
  compute. The edge lists and weights are the same in both layers, since both come from the one edge list.
-/
import proofs.«169751_j70755291234308_1_alg».proof.Proof.Graph
import Idealize.ShloMosaic.PureOps.Ideal
import Idealize.ShloMosaic.Lib.ValueIdx

noncomputable section

namespace Cert.Gcn

open Idealize.ShloMosaic Idealize.ShloMosaic.ValueIdx Cert.KernelIdeal

/-- Layer 1's linear map on whole arrays: entry `(i, j)` is the sum over `k` of `x i k * w k j`. -/
def lin1 (x : (⟨S50000x128, .f32⟩ : BufTy).Contents (Elt Ideal)) (w : (⟨S128x256, .f32⟩ : BufTy).Contents (Elt Ideal)) :
    (⟨S50000x256, .f32⟩ : BufTy).Contents (Elt Ideal) :=
  fun i => ∑ k : Fin 128, x (ix2 (i 0) k) * w (ix2 k (i 1))

/-- Layer 2's linear map on whole arrays: entry `(i, j)` is the sum over `k` of `x i k * w k j`. -/
def lin2 (x : (⟨S50000x256, .f32⟩ : BufTy).Contents (Elt Ideal)) (w : (⟨S256x128, .f32⟩ : BufTy).Contents (Elt Ideal)) :
    (⟨S50000x128, .f32⟩ : BufTy).Contents (Elt Ideal) :=
  fun i => ∑ k : Fin 256, x (ix2 (i 0) k) * w (ix2 k (i 1))

/-- Layer 1's output rows: the aggregation of the first product. -/
def hidden (a0 : (⟨S50000x128, .f32⟩ : BufTy).Contents (Elt Ideal)) (a1 : (⟨S128x256, .f32⟩ : BufTy).Contents (Elt Ideal))
    (a2 : (⟨S256, .f32⟩ : BufTy).Contents (Elt Ideal)) (e : (⟨S2x800000, .i32⟩ : BufTy).Contents (Elt Ideal)) :
    (⟨S50000x256, .f32⟩ : BufTy).Contents (Elt Ideal) :=
  agg256 (lin1 a0 a1) (srcs e) (dsts e) (nrm (srcs e) (dsts e)) a2

/-- Two graph-convolution layers: the result as one function of the six argument arrays. -/
def gcn (a0 : (⟨S50000x128, .f32⟩ : BufTy).Contents (Elt Ideal)) (a1 : (⟨S128x256, .f32⟩ : BufTy).Contents (Elt Ideal))
    (a2 : (⟨S256, .f32⟩ : BufTy).Contents (Elt Ideal)) (a3 : (⟨S256x128, .f32⟩ : BufTy).Contents (Elt Ideal))
    (a4 : (⟨S128, .f32⟩ : BufTy).Contents (Elt Ideal)) (e : (⟨S2x800000, .i32⟩ : BufTy).Contents (Elt Ideal)) :
    (⟨S50000x128, .f32⟩ : BufTy).Contents (Elt Ideal) :=
  agg128 (lin2 (hidden a0 a1 a2 e) a3) (srcs e) (dsts e) (nrm (srcs e) (dsts e)) a4

end Cert.Gcn

end
-- ==== Proof.Product.lean ====
/-
  The two kernel bodies, read at an index over the extended reals.

  Each body loads a block of rows `x` and the whole weight matrix `w`, changes both to bf16 (no change of value over the
  extended reals), multiplies them on the matrix unit into a zero accumulator and stores the product. So the stored
  block, at row `r` and column `q`, is the plain sum over the contracted axis `k` of `x r k * w k q`: the zero accumulator
  adds nothing, and the contraction's one-axis index is re-indexed by `k`.
-/
import proofs.«169751_j70755291234308_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx Cert.KernelIdeal Cert.KernelIdeal.Gen

/-- The bodies load and store whole staging buffers: every access starts at offset zero on both axes. -/
theorem zeroOffsets : (![0, 0] : Fin 2 → Nat) = fun _ => 0 := funext fun a => by fin_cases a <;> rfl

/-! ## Layer 1's body: a 5000 x 128 block of rows times the 128 x 256 weights -/

/-- The contraction record of layer 1's block product. -/
abbrev dotA := dot_S5000x128_S128x256_S5000x256_1_0_0_1_n_n

theorem dotA_lhs0 (i : S5000x256.Idx) (q : dotA.contr.Idx) : (dotA.lhsIdx i q 0).val = (i 0).val := by
  unfold DotDims.lhsIdx
  rw [dif_neg (show ¬(0 : Fin S5000x128.rank) ∈ dotA.lhsBatch by decide), dif_pos (show (0 : Fin S5000x128.rank) ∈ dotA.lhsNonContracting by decide)]
  rfl
theorem dotA_lhs1 (i : S5000x256.Idx) (q : dotA.contr.Idx) : (dotA.lhsIdx i q 1).val = (q ⟨0, by decide⟩).val :=
  dotA.lhsIdx_val_of_single rfl i q
theorem dotA_rhs0 (i : S5000x256.Idx) (q : dotA.contr.Idx) : (dotA.rhsIdx i q 0).val = (q ⟨0, by decide⟩).val :=
  dotA.rhsIdx_val_of_single rfl i q
theorem dotA_rhs1 (i : S5000x256.Idx) (q : dotA.contr.Idx) : (dotA.rhsIdx i q 1).val = (i 1).val := by
  unfold DotDims.rhsIdx
  rw [dif_neg (show ¬(1 : Fin S128x256.rank) ∈ dotA.rhsBatch by decide), dif_pos (show (1 : Fin S128x256.rank) ∈ dotA.rhsNonContracting by decide)]
  rfl

/-- Layer 1's stored block at row `r`, column `q`: the sum over `k` of `x r k * w k q`. -/
theorem blockA_apply (x : FVec Ideal S5000x128 .f32) (w : FVec Ideal S128x256 .f32) (r : Fin 5000) (q : Fin 256) :
    k0_pay1 (F := Ideal) x w (ix2 r q) = ∑ k : Fin 128, x (ix2 r k) * w (ix2 k q) := by
  unfold k0_pay1
  refine (Ideal.matmul_constant_zero_apply dotA none _ _ (ix2 r q)).trans ?_
  rw [← Equiv.sum_comp (contrEquiv1 dotA 128 rfl rfl).symm]
  refine Finset.sum_congr rfl fun k _ => ?_
  have hk := contrEquiv1_symm_val dotA 128 rfl rfl k
  have el : dotA.lhsIdx (ix2 r q) ((contrEquiv1 dotA 128 rfl rfl).symm k) = ix2 r k := funext fun a => Fin.ext (by
    match a with
    | ⟨0, _⟩ => exact dotA_lhs0 _ _
    | ⟨1, _⟩ => exact (dotA_lhs1 _ _).trans hk)
  have er : dotA.rhsIdx (ix2 r q) ((contrEquiv1 dotA 128 rfl rfl).symm k) = ix2 k q := funext fun a => Fin.ext (by
    match a with
    | ⟨0, _⟩ => exact (dotA_rhs0 _ _).trans hk
    | ⟨1, _⟩ => exact dotA_rhs1 _ _)
  rw [el, er]
  rfl

/-! ## Layer 2's body: a 5000 x 256 block of rows times the 256 x 128 weights -/

/-- The contraction record of layer 2's block product. -/
abbrev dotB := dot_S5000x256_S256x128_S5000x128_1_0_0_1_n_n

theorem dotB_lhs0 (i : S5000x128.Idx) (q : dotB.contr.Idx) : (dotB.lhsIdx i q 0).val = (i 0).val := by
  unfold DotDims.lhsIdx
  rw [dif_neg (show ¬(0 : Fin S5000x256.rank) ∈ dotB.lhsBatch by decide), dif_pos (show (0 : Fin S5000x256.rank) ∈ dotB.lhsNonContracting by decide)]
  rfl
theorem dotB_lhs1 (i : S5000x128.Idx) (q : dotB.contr.Idx) : (dotB.lhsIdx i q 1).val = (q ⟨0, by decide⟩).val :=
  dotB.lhsIdx_val_of_single rfl i q
theorem dotB_rhs0 (i : S5000x128.Idx) (q : dotB.contr.Idx) : (dotB.rhsIdx i q 0).val = (q ⟨0, by decide⟩).val :=
  dotB.rhsIdx_val_of_single rfl i q
theorem dotB_rhs1 (i : S5000x128.Idx) (q : dotB.contr.Idx) : (dotB.rhsIdx i q 1).val = (i 1).val := by
  unfold DotDims.rhsIdx
  rw [dif_neg (show ¬(1 : Fin S256x128.rank) ∈ dotB.rhsBatch by decide), dif_pos (show (1 : Fin S256x128.rank) ∈ dotB.rhsNonContracting by decide)]
  rfl

/-- Layer 2's stored block at row `r`, column `q`: the sum over `k` of `x r k * w k q` (the body's same-shape cast
    of the rows changes nothing). -/
theorem blockB_apply (x : FVec Ideal S5000x256 .f32) (w : FVec Ideal S256x128 .f32) (r : Fin 5000) (q : Fin 128) :
    k1_pay1 (F := Ideal) x w (ix2 r q) = ∑ k : Fin 256, x (ix2 r k) * w (ix2 k q) := by
  unfold k1_pay1
  refine (Ideal.matmul_constant_zero_apply dotB none _ _ (ix2 r q)).trans ?_
  rw [← Equiv.sum_comp (contrEquiv1 dotB 256 rfl rfl).symm]
  refine Finset.sum_congr rfl fun k _ => ?_
  have hk := contrEquiv1_symm_val dotB 256 rfl rfl k
  have el : dotB.lhsIdx (ix2 r q) ((contrEquiv1 dotB 256 rfl rfl).symm k) = ix2 r k := funext fun a => Fin.ext (by
    match a with
    | ⟨0, _⟩ => exact dotB_lhs0 _ _
    | ⟨1, _⟩ => exact (dotB_lhs1 _ _).trans hk)
  have er : dotB.rhsIdx (ix2 r q) ((contrEquiv1 dotB 256 rfl rfl).symm k) = ix2 k q := funext fun a => Fin.ext (by
    match a with
    | ⟨0, _⟩ => exact (dotB_rhs0 _ _).trans hk
    | ⟨1, _⟩ => exact dotB_rhs1 _ _)
  rw [el, er]
  show x ((Shape.reshapeEquiv shapeCasts_S5000x256_S5000x256) (ix2 r k)) * w (ix2 k q) = _
  rw [Shape.reshapeEquiv_self]

end Cert.Gcn

end
-- ==== Proof.Layer1Rows.lean ====
/-
  Layer 1's region: what the ten grid points leave in the output array.

  Grid point `t` reads rows `5000 t … 5000 t + 4999` of the input array and the whole weight matrix, and writes back rows
  `5000 t … 5000 t + 4999` of the output array. An entry of the written block at local row `r` is the sum over `k` of
  `x (5000 t + r) k * w k q`, which depends on the one input row `5000 t + r` only; so every block is a block of ONE
  function of the whole arrays, the product of the input array with the weights, `lin1`. The ten blocks cover the 50000
  rows (row `i` lies in block `i / 5000`), so after the region the output array is that product.
-/
import proofs.«169751_j70755291234308_1_alg».proof.Proof.Gen.KernelIdeal.Frame
import proofs.«169751_j70755291234308_1_alg».proof.Proof.Product
import proofs.«169751_j70755291234308_1_alg».proof.Proof.Layers

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- A written block's entry is the whole product's entry, once the block's rows are the array's rows `R`. -/
theorem pointA (X : (⟨S50000x128, .f32⟩ : BufTy).Contents (Elt Ideal)) (W : (⟨S128x256, .f32⟩ : BufTy).Contents (Elt Ideal))
    (x : FVec Ideal S5000x128 .f32) (w : FVec Ideal S128x256 .f32) (R : Fin 50000) (r : Fin 5000) (q : Fin 256)
    (hx : ∀ k : Fin 128, x (ix2 r k) = X (ix2 R k)) (hw : ∀ k : Fin 128, w (ix2 k q) = W (ix2 k q)) :
    k0_pay1 (F := Ideal) x w (ix2 r q) = lin1 X W (ix2 R q) := by
  refine (blockA_apply x w r q).trans ?_
  unfold lin1
  exact Finset.sum_congr rfl fun k _ => by rw [hx k, hw k]

/-- The printed index maps over the ten points: the row window and the output window move together along the rows, at block
    `t`; no window moves along the columns, and the weights do not move at all. -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rowBound (t : Fin cfg0.N) (r : Fin 5000) : t.val * 5000 + r.val < 50000 := by
  have h : t.val < 10 := lt_of_lt_of_eq t.isLt N_0
  have := r.isLt
  omega

variable (V : (c : Dev nD) → (b : Ref sig .tc) → Buf (Elt Ideal) ((c : Thread nD τ).loc b))

/-- The row window's block at point `t`: local row `r` is the array's row `5000 t + r`. -/
theorem rowsA (c : Dev nD) (t : Fin cfg0.N) (r : Fin 5000) (k : Fin 128) :
    iblk0 V c 0 t (ix2 r k) = V c main_arg0 (ix2 ⟨t.val * 5000 + r.val, rowBound t r⟩ k) := by
  obtain ⟨e0, e1, -, -, -, -⟩ := idxA t
  show V c main_arg0 (((cfg0.win 0).blk t).view.emb (ix2 r k)) = _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The weight window's block at any point is the whole weight matrix. -/
theorem colsA (c : Dev nD) (t : Fin cfg0.N) (k : Fin 128) (q : Fin 256) :
    iblk0 V c 1 t (ix2 k q) = V c main_arg1 (ix2 k q) := by
  obtain ⟨-, -, e2, e3, -, -⟩ := idxA t
  show V c main_arg1 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The output window's block at point `t`: local row `r` is the array's row `5000 t + r`. -/
theorem outIxA (t : Fin cfg0.N) (r : Fin 5000) (q : Fin 256) :
    ((cfg0.win 2).blk t).view.emb (ix2 r q) = ix2 ⟨t.val * 5000 + r.val, rowBound t r⟩ q := by
  obtain ⟨-, -, -, -, e4, e5⟩ := idxA t
  refine funext fun a => Fin.ext ?_
  match a with
  | ⟨0, _⟩ => show win0_2.index t (0 : Fin 2) * 5000 + 1 * r.val = t.val * 5000 + r.val; omega
  | ⟨1, _⟩ => show win0_2.index t (1 : Fin 2) * 256 + 1 * q.val = q.val; omega

/-- What point `t` writes back is block `t` of the whole product. -/
theorem flushedA (c : Dev nD) (t : Fin cfg0.N) :
    (dat0 V c).flushed 2 t = ((cfg0.win 2).blk t).view.read (Elt Ideal) (lin1 (V c main_arg0) (V c main_arg1)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x256) zeroOffsets]
  funext j
  obtain ⟨r, q, rfl⟩ : ∃ (r : Fin 5000) (q : Fin 256), j = ix2 r q := ⟨j 0, j 1, eq_ix2 j⟩
  show k0_pay1 (iblk0 V c 0 t) (iblk0 V c 1 t) (ix2 r q) = lin1 (V c main_arg0) (V c main_arg1) (((cfg0.win 2).blk t).view.emb (ix2 r q))
  rw [outIxA t r q]
  exact pointA (V c main_arg0) (V c main_arg1) (iblk0 V c 0 t) (iblk0 V c 1 t) ⟨t.val * 5000 + r.val, rowBound t r⟩ r q
    (fun k => rowsA V c t r k) (fun k => colsA V c t k q)

/-- An index of the output array is in point `t`'s block iff each coordinate is in the block's range on its axis. -/
theorem mem_blkA (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Row `n` lies in one of the ten blocks: block `n / 5000`. -/
theorem blockLtA {n : Nat} (h : n < 50000) : n / 5000 < cfg0.N := by
  show n / 5000 < grid0.N
  rw [N_0]; omega

/-- Row `i` lies in block `i / 5000`: the ten blocks cover the array. -/
theorem coverA (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  refine ⟨⟨(i 0).val / 5000, blockLtA hi0⟩, flush0_2 _, ?_⟩
  rw [mem_blkA]
  obtain ⟨-, -, -, -, e4, e5⟩ := idxA ⟨(i 0).val / 5000, blockLtA hi0⟩
  have e4' : win0_2.index ⟨(i 0).val / 5000, blockLtA hi0⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 256 ≤ (i 1).val ∧ (i 1).val < win0_2.index _ (1 : Fin 2) * 256 + 256; omega

/-- After layer 1's region its output array is the product of the input array with the weights, as the region found them. -/
theorem finalA (c : Dev nD) : (dat0 V c).arrAt 2 cfg0.N = lin1 (V c main_arg0) (V c main_arg1) :=
  (dat0 V c).arrAt_eq_of_cover 2 _ (fun t _ => flushedA V c t) coverA

end Cert.Gcn

end
-- ==== Proof.Layer2Rows.lean ====
/-
  Layer 2's region: what the ten grid points leave in the output array.

  Grid point `t` reads rows `5000 t … 5000 t + 4999` of the 50000 x 256 input array and the whole 256 x 128 weight matrix,
  and writes back rows `5000 t … 5000 t + 4999` of the 50000 x 128 output array. An entry of the written block at local row
  `r` is the sum over `k` of `x (5000 t + r) k * w k q`: every block is a block of the product of the whole input array with
  the weights, `lin2`. The ten blocks cover the 50000 rows, so after the region the output array is that product.
-/
import proofs.«169751_j70755291234308_1_alg».proof.Proof.Gen.KernelIdeal.Frame
import proofs.«169751_j70755291234308_1_alg».proof.Proof.Product
import proofs.«169751_j70755291234308_1_alg».proof.Proof.Layers

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- A written block's entry is the whole product's entry, once the block's rows are the array's rows `R`. -/
theorem pointB (X : (⟨S50000x256, .f32⟩ : BufTy).Contents (Elt Ideal)) (W : (⟨S256x128, .f32⟩ : BufTy).Contents (Elt Ideal))
    (x : FVec Ideal S5000x256 .f32) (w : FVec Ideal S256x128 .f32) (R : Fin 50000) (r : Fin 5000) (q : Fin 128)
    (hx : ∀ k : Fin 256, x (ix2 r k) = X (ix2 R k)) (hw : ∀ k : Fin 256, w (ix2 k q) = W (ix2 k q)) :
    k1_pay1 (F := Ideal) x w (ix2 r q) = lin2 X W (ix2 R q) := by
  refine (blockB_apply x w r q).trans ?_
  unfold lin2
  exact Finset.sum_congr rfl fun k _ => by rw [hx k, hw k]

/-- The printed index maps over the ten points: the row window and the output window move together along the rows, at block
    `t`; no window moves along the columns, and the weights do not move at all. -/
theorem idxB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem rowBoundB (t : Fin cfg1.N) (r : Fin 5000) : t.val * 5000 + r.val < 50000 := by
  have h : t.val < 10 := lt_of_lt_of_eq t.isLt N_1
  have := r.isLt
  omega

variable (V : (c : Dev nD) → (b : Ref sig .tc) → Buf (Elt Ideal) ((c : Thread nD τ).loc b))

/-- The row window's block at point `t`: local row `r` is the array's row `5000 t + r`. -/
theorem rowsB (c : Dev nD) (t : Fin cfg1.N) (r : Fin 5000) (k : Fin 256) :
    iblk1 V c 0 t (ix2 r k) = V c main_v46 (ix2 ⟨t.val * 5000 + r.val, rowBoundB t r⟩ k) := by
  obtain ⟨e0, e1, -, -, -, -⟩ := idxB t
  show V c main_v46 (((cfg1.win 0).blk t).view.emb (ix2 r k)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 256 + 1 * k.val = k.val; omega

/-- The weight window's block at any point is the whole weight matrix. -/
theorem colsB (c : Dev nD) (t : Fin cfg1.N) (k : Fin 256) (q : Fin 128) :
    iblk1 V c 1 t (ix2 k q) = V c main_arg3 (ix2 k q) := by
  obtain ⟨-, -, e2, e3, -, -⟩ := idxB t
  show V c main_arg3 (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The output window's block at point `t`: local row `r` is the array's row `5000 t + r`. -/
theorem outIxB (t : Fin cfg1.N) (r : Fin 5000) (q : Fin 128) :
    ((cfg1.win 2).blk t).view.emb (ix2 r q) = ix2 ⟨t.val * 5000 + r.val, rowBoundB t r⟩ q := by
  obtain ⟨-, -, -, -, e4, e5⟩ := idxB t
  refine funext fun a => Fin.ext ?_
  match a with
  | ⟨0, _⟩ => show win1_2.index t (0 : Fin 2) * 5000 + 1 * r.val = t.val * 5000 + r.val; omega
  | ⟨1, _⟩ => show win1_2.index t (1 : Fin 2) * 128 + 1 * q.val = q.val; omega

/-- What point `t` writes back is block `t` of the whole product. -/
theorem flushedB (c : Dev nD) (t : Fin cfg1.N) :
    (dat1 V c).flushed 2 t = ((cfg1.win 2).blk t).view.read (Elt Ideal) (lin2 (V c main_v46) (V c main_arg3)) := by
  show (cfg1.win 2).cut (grid1.coords t) ((dat1 V c).after 2 t) = _
  rw [after1_2]
  unfold out1_2
  rw [View.canon_unit_zero zeroOffsets]
  simp only [View.ld_unit_zero (S := S5000x256) zeroOffsets, View.ld_unit_zero (S := S256x128) zeroOffsets]
  funext j
  obtain ⟨r, q, rfl⟩ : ∃ (r : Fin 5000) (q : Fin 128), j = ix2 r q := ⟨j 0, j 1, eq_ix2 j⟩
  show k1_pay1 (iblk1 V c 0 t) (iblk1 V c 1 t) (ix2 r q) = lin2 (V c main_v46) (V c main_arg3) (((cfg1.win 2).blk t).view.emb (ix2 r q))
  rw [outIxB t r q]
  exact pointB (V c main_v46) (V c main_arg3) (iblk1 V c 0 t) (iblk1 V c 1 t) ⟨t.val * 5000 + r.val, rowBoundB t r⟩ r q
    (fun k => rowsB V c t r k) (fun k => colsB V c t k q)

/-- An index of the output array is in point `t`'s block iff each coordinate is in the block's range on its axis. -/
theorem mem_blkB (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `n` lies in one of the ten blocks: block `n / 5000`. -/
theorem blockLtB {n : Nat} (h : n < 50000) : n / 5000 < cfg1.N := by
  show n / 5000 < grid1.N
  rw [N_1]; omega

/-- Row `i` lies in block `i / 5000`: the ten blocks cover the array. -/
theorem coverB (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, blockLtB hi0⟩, flush1_2 _, ?_⟩
  rw [mem_blkB]
  obtain ⟨-, -, -, -, e4, e5⟩ := idxB ⟨(i 0).val / 5000, blockLtB hi0⟩
  have e4' : win1_2.index ⟨(i 0).val / 5000, blockLtB hi0⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 128 ≤ (i 1).val ∧ (i 1).val < win1_2.index _ (1 : Fin 2) * 128 + 128; omega

/-- After layer 2's region its output array is the product of the input array with the weights, as the region found them. -/
theorem finalB (c : Dev nD) : (dat1 V c).arrAt 2 cfg1.N = lin2 (V c main_v46) (V c main_arg3) :=
  (dat1 V c).arrAt_eq_of_cover 2 _ (fun t _ => flushedB V c t) coverB

end Cert.Gcn

end
-- ==== Proof.Boundaries.lean ====
/-
  The kernel program's buffers at each boundary between its segments, over the extended reals.

  Write `e` for the edge list, `S = srcs e`, `D = dsts e`, `N = nrm S D` (Graph.lean). The host operations before layer 1's
  region compute `S`, `D` and `N` once and no later segment writes them; the region leaves `lin1 emb W1` in its output
  array; the stretch after it leaves `agg256 (lin1 emb W1) S D N b1`; layer 2's region leaves `lin2` of that and `W2`; and
  the last stretch leaves `agg128` of that, `S`, `D`, `N` and `b2` in the result buffer.
-/
import proofs.«169751_j70755291234308_1_alg».proof.Proof.Gen.KernelIdeal.Frame
import proofs.«169751_j70755291234308_1_alg».proof.Proof.Layers
import proofs.«169751_j70755291234308_1_alg».proof.Proof.Layer1Rows
import proofs.«169751_j70755291234308_1_alg».proof.Proof.Layer2Rows
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Entering layer 1's region -/

theorem in1_src : W3 m ρ c (Proc.devRef .tc main_v5) = srcs (m ((c.tc : Thread nD τ).loc main_arg5)) := by
  dsimp only [W3, W2, W1, W0, hostOps0, hostOps0_1, hostOps0_2]
  after_results_simp
  rfl

theorem in1_dst : W3 m ρ c (Proc.devRef .tc main_v6) = dsts (m ((c.tc : Thread nD τ).loc main_arg5)) := by
  dsimp only [W3, W2, W1, W0, hostOps0, hostOps0_1, hostOps0_2]
  after_results_simp
  rfl

/-- After the first two stretches: the edge lists and the per-node factors. -/
theorem pre_src : W2 m ρ c (Proc.devRef .tc main_v5) = srcs (m ((c.tc : Thread nD τ).loc main_arg5)) := by
  dsimp only [W2, W1, W0, hostOps0, hostOps0_1]
  after_results_simp
  rfl
theorem pre_dst : W2 m ρ c (Proc.devRef .tc main_v6) = dsts (m ((c.tc : Thread nD τ).loc main_arg5)) := by
  dsimp only [W2, W1, W0, hostOps0, hostOps0_1]
  after_results_simp
  rfl
theorem pre_deg : W1 m ρ c (Proc.devRef .tc main_v10) = deg (dsts (m ((c.tc : Thread nD τ).loc main_arg5))) := by
  dsimp only [W1, W0, hostOps0]
  after_results_simp
  rfl
theorem pre_pos : W1 m ρ c (Proc.devRef .tc main_v12) = positive (W1 m ρ c (Proc.devRef .tc main_v10)) := by
  dsimp only [W1, W0, hostOps0]
  after_results_simp
  rfl
theorem pre_rsqrt : W1 m ρ c (Proc.devRef .tc main_v13) = invSqrt (W1 m ρ c (Proc.devRef .tc main_v10)) := by
  dsimp only [W1, W0, hostOps0]
  after_results_simp
  rfl
theorem pre_zero : W1 m ρ c (Proc.devRef .tc main_cst_2) = constant (F := Ideal) S_ .f32 0x00000000#32 := by
  dsimp only [W1, W0, hostOps0]
  after_results_simp
/-- The call's three operations, whatever they start from: the mask's choice between the second buffer and the scalar. -/
theorem choice_stretch (X : Valuation τ sig (Elt Ideal)) :
    StableHlo.after hostOps0_1 X (Proc.devRef .tc main_v14)
      = orElse (X (Proc.devRef .tc main_v12)) (X (Proc.devRef .tc main_v13)) (X (Proc.devRef .tc main_cst_2)) := by
  dsimp only [hostOps0_1]
  after_results_simp
  simp only [TRef.toBuf, TRef.ofBuf, cast_eq]
  rfl
theorem pre_dinv : W2 m ρ c (Proc.devRef .tc main_v14) = dinv (deg (dsts (m ((c.tc : Thread nD τ).loc main_arg5)))) := by
  refine (choice_stretch (W1 m ρ c)).trans ?_
  rw [pre_pos, pre_rsqrt, pre_zero, pre_deg]
  rfl

/-- The stretch that gathers the factors at every edge's ends, whatever it starts from. -/
theorem weights_stretch (X : Valuation τ sig (Elt Ideal)) :
    StableHlo.after hostOps0_2 X (Proc.devRef .tc main_v29)
      = weights (X (Proc.devRef .tc main_v14)) (X (Proc.devRef .tc main_v5)) (X (Proc.devRef .tc main_v6)) := by
  dsimp only [hostOps0_2]
  after_results_simp
  rfl

theorem in1_nrm : W3 m ρ c (Proc.devRef .tc main_v29) = nrm (srcs (m ((c.tc : Thread nD τ).loc main_arg5))) (dsts (m ((c.tc : Thread nD τ).loc main_arg5))) := by
  refine (weights_stretch (W2 m ρ c)).trans ?_
  rw [pre_dinv, pre_src, pre_dst]
  rfl

theorem in1_arg0 : W3 m ρ c (Proc.devRef .tc main_arg0) = m ((c.tc : Thread nD τ).loc main_arg0) := by
  dsimp only [W3, W2, W1, W0, hostOps0, hostOps0_1, hostOps0_2]
  after_results_simp
theorem in1_arg1 : W3 m ρ c (Proc.devRef .tc main_arg1) = m ((c.tc : Thread nD τ).loc main_arg1) := by
  dsimp only [W3, W2, W1, W0, hostOps0, hostOps0_1, hostOps0_2]
  after_results_simp
theorem in1_arg2 : W3 m ρ c (Proc.devRef .tc main_arg2) = m ((c.tc : Thread nD τ).loc main_arg2) := by
  dsimp only [W3, W2, W1, W0, hostOps0, hostOps0_1, hostOps0_2]
  after_results_simp
theorem in1_arg3 : W3 m ρ c (Proc.devRef .tc main_arg3) = m ((c.tc : Thread nD τ).loc main_arg3) := by
  dsimp only [W3, W2, W1, W0, hostOps0, hostOps0_1, hostOps0_2]
  after_results_simp
theorem in1_arg4 : W3 m ρ c (Proc.devRef .tc main_arg4) = m ((c.tc : Thread nD τ).loc main_arg4) := by
  dsimp only [W3, W2, W1, W0, hostOps0, hostOps0_1, hostOps0_2]
  after_results_simp

/-! ## Leaving layer 1's region -/

theorem out1_lin : W4 m ρ c (Proc.devRef .tc main_v30) = lin1 (m ((c.tc : Thread nD τ).loc main_arg0)) (m ((c.tc : Thread nD τ).loc main_arg1)) := by
  refine (W4_arr m ρ c 2).trans ?_
  refine (finalA (V3 m ρ) c).trans ?_
  show lin1 (W3 m ρ c (Proc.devRef .tc main_arg0)) (W3 m ρ c (Proc.devRef .tc main_arg1)) = _
  rw [in1_arg0, in1_arg1]

theorem out1_src : W4 m ρ c (Proc.devRef .tc main_v5) = srcs (m ((c.tc : Thread nD τ).loc main_arg5)) :=
  (W4_of_ne m ρ c main_v5 (by decide)).trans (in1_src m ρ c)
theorem out1_dst : W4 m ρ c (Proc.devRef .tc main_v6) = dsts (m ((c.tc : Thread nD τ).loc main_arg5)) :=
  (W4_of_ne m ρ c main_v6 (by decide)).trans (in1_dst m ρ c)
theorem out1_nrm : W4 m ρ c (Proc.devRef .tc main_v29) = nrm (srcs (m ((c.tc : Thread nD τ).loc main_arg5))) (dsts (m ((c.tc : Thread nD τ).loc main_arg5))) :=
  (W4_of_ne m ρ c main_v29 (by decide)).trans (in1_nrm m ρ c)
theorem out1_arg2 : W4 m ρ c (Proc.devRef .tc main_arg2) = m ((c.tc : Thread nD τ).loc main_arg2) :=
  (W4_of_ne m ρ c main_arg2 (by decide)).trans (in1_arg2 m ρ c)
theorem out1_arg3 : W4 m ρ c (Proc.devRef .tc main_arg3) = m ((c.tc : Thread nD τ).loc main_arg3) :=
  (W4_of_ne m ρ c main_arg3 (by decide)).trans (in1_arg3 m ρ c)
theorem out1_arg4 : W4 m ρ c (Proc.devRef .tc main_arg4) = m ((c.tc : Thread nD τ).loc main_arg4) :=
  (W4_of_ne m ρ c main_arg4 (by decide)).trans (in1_arg4 m ρ c)

/-! ## Entering layer 2's region -/

/-- The stretch between the regions, whatever it starts from: layer 1's aggregation of the buffers it reads. -/
theorem mid_agg (X : Valuation τ sig (Elt Ideal)) :
    StableHlo.after hostOps1 X (Proc.devRef .tc main_v46)
      = agg256 (X (Proc.devRef .tc main_v30)) (X (Proc.devRef .tc main_v5)) (X (Proc.devRef .tc main_v6)) (X (Proc.devRef .tc main_v29)) (X (Proc.devRef .tc main_arg2)) := by
  dsimp only [hostOps1]
  after_results_simp
  rfl
theorem mid_src (X : Valuation τ sig (Elt Ideal)) : StableHlo.after hostOps1 X (Proc.devRef .tc main_v5) = X (Proc.devRef .tc main_v5) := by
  dsimp only [hostOps1]; after_results_simp
theorem mid_dst (X : Valuation τ sig (Elt Ideal)) : StableHlo.after hostOps1 X (Proc.devRef .tc main_v6) = X (Proc.devRef .tc main_v6) := by
  dsimp only [hostOps1]; after_results_simp
theorem mid_nrm (X : Valuation τ sig (Elt Ideal)) : StableHlo.after hostOps1 X (Proc.devRef .tc main_v29) = X (Proc.devRef .tc main_v29) := by
  dsimp only [hostOps1]; after_results_simp
theorem mid_arg3 (X : Valuation τ sig (Elt Ideal)) : StableHlo.after hostOps1 X (Proc.devRef .tc main_arg3) = X (Proc.devRef .tc main_arg3) := by
  dsimp only [hostOps1]; after_results_simp
theorem mid_arg4 (X : Valuation τ sig (Elt Ideal)) : StableHlo.after hostOps1 X (Proc.devRef .tc main_arg4) = X (Proc.devRef .tc main_arg4) := by
  dsimp only [hostOps1]; after_results_simp

theorem in2_hidden : W5 m ρ c (Proc.devRef .tc main_v46)
    = hidden (m ((c.tc : Thread nD τ).loc main_arg0)) (m ((c.tc : Thread nD τ).loc main_arg1)) (m ((c.tc : Thread nD τ).loc main_arg2)) (m ((c.tc : Thread nD τ).loc main_arg5)) := by
  refine (mid_agg (W4 m ρ c)).trans ?_
  rw [out1_lin, out1_src, out1_dst, out1_nrm, out1_arg2]
  rfl

/-! ## Leaving layer 2's region -/

theorem out2_lin : W6 m ρ c (Proc.devRef .tc main_v47)
    = lin2 (hidden (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3)) := by
  refine (W6_arr m ρ c 2).trans ?_
  refine (finalB (V5 m ρ) c).trans ?_
  show lin2 (W5 m ρ c (Proc.devRef .tc main_v46)) (W5 m ρ c (Proc.devRef .tc main_arg3)) = _
  rw [in2_hidden, show W5 m ρ c (Proc.devRef .tc main_arg3) = _ from (mid_arg3 (W4 m ρ c)).trans (out1_arg3 m ρ c)]

theorem out2_src : W6 m ρ c (Proc.devRef .tc main_v5) = srcs (m ((c.tc : Thread nD τ).loc main_arg5)) :=
  (W6_of_ne m ρ c main_v5 (by decide)).trans ((mid_src (W4 m ρ c)).trans (out1_src m ρ c))
theorem out2_dst : W6 m ρ c (Proc.devRef .tc main_v6) = dsts (m ((c.tc : Thread nD τ).loc main_arg5)) :=
  (W6_of_ne m ρ c main_v6 (by decide)).trans ((mid_dst (W4 m ρ c)).trans (out1_dst m ρ c))
theorem out2_nrm : W6 m ρ c (Proc.devRef .tc main_v29) = nrm (srcs (m ((c.tc : Thread nD τ).loc main_arg5))) (dsts (m ((c.tc : Thread nD τ).loc main_arg5))) :=
  (W6_of_ne m ρ c main_v29 (by decide)).trans ((mid_nrm (W4 m ρ c)).trans (out1_nrm m ρ c))
theorem out2_arg4 : W6 m ρ c (Proc.devRef .tc main_arg4) = m ((c.tc : Thread nD τ).loc main_arg4) :=
  (W6_of_ne m ρ c main_arg4 (by decide)).trans ((mid_arg4 (W4 m ρ c)).trans (out1_arg4 m ρ c))

/-! ## The result -/

/-- The last stretch, whatever it starts from: layer 2's aggregation of the buffers it reads. -/
theorem last_agg (X : Valuation τ sig (Elt Ideal)) :
    StableHlo.after hostOps2 X (Proc.devRef .tc main_v63)
      = agg128 (X (Proc.devRef .tc main_v47)) (X (Proc.devRef .tc main_v5)) (X (Proc.devRef .tc main_v6)) (X (Proc.devRef .tc main_v29)) (X (Proc.devRef .tc main_arg4)) := by
  dsimp only [hostOps2]
  after_results_simp
  rfl

/-- The kernel program's result buffer at the end of the run. -/
theorem result_eq : W7 m ρ c (Proc.devRef .tc main_v63)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (last_agg (W6 m ρ c)).trans ?_
  rw [out2_lin, out2_src, out2_dst, out2_nrm, out2_arg4]
  rfl

end Cert.Gcn

end
-- ==== Proof.RefLayers.lean ====
/-
  The reference program's result, over the extended reals, is the same two layers.

  The reference computes each layer as: one whole matrix product, then the aggregation. Its products are the sums `lin1`,
  `lin2` (a host `dot_general` over the extended reals is the plain sum over the contracted axis). It builds the self-looped
  edge lists, the degrees and the edge weights once per layer, from the same edge list by the same operations, so both
  copies are `srcs`, `dsts`, `nrm` of the edge list. Hence its result is `gcn` of its six arguments.
-/
import proofs.«169751_j70755291234308_1_alg».proof.Proof.RefRead
import proofs.«169751_j70755291234308_1_alg».proof.Proof.Layers

set_option maxRecDepth 16384

noncomputable section

namespace Cert.Gcn

open Idealize.ShloMosaic Idealize.ShloMosaic.ValueIdx
open Cert.ReferenceIdeal.ReadP

/-! ## The matrix products -/

theorem ref_lin1 (x0 : (⟨Cert.ReferenceIdeal.S50000x128, .f32⟩ : BufTy).Contents (Elt Ideal)) (x1 : (⟨Cert.ReferenceIdeal.S128x256, .f32⟩ : BufTy).Contents (Elt Ideal)) :
    val_main_v4 (F := Ideal) x0 x1 = lin1 x0 x1 := by
  funext i
  rw [val_main_v4_apply]
  unfold lin1
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

theorem ref_lin2 (x0 : (⟨Cert.ReferenceIdeal.S50000x128, .f32⟩ : BufTy).Contents (Elt Ideal)) (x1 : (⟨Cert.ReferenceIdeal.S128x256, .f32⟩ : BufTy).Contents (Elt Ideal)) (x2 : (⟨Cert.ReferenceIdeal.S256, .f32⟩ : BufTy).Contents (Elt Ideal)) (x3 : (⟨Cert.ReferenceIdeal.S256x128, .f32⟩ : BufTy).Contents (Elt Ideal)) (x5 : (⟨Cert.ReferenceIdeal.S2x800000, .i32⟩ : BufTy).Contents (Elt Ideal)) :
    val_main_v47 (F := Ideal) x0 x1 x2 x3 x5 = lin2 (val_main_v46 (F := Ideal) x0 x1 x2 x5) x3 := by
  funext i
  rw [val_main_v47_apply]
  unfold lin2
  refine Finset.sum_congr rfl fun k _ => ?_
  have el : lidx_main_v47 i k = ix2 (i 0) k := funext fun a => by match a with | ⟨0, _⟩ => rfl | ⟨1, _⟩ => rfl
  have er : ridx_main_v47 i k = ix2 k (i 1) := funext fun a => by match a with | ⟨0, _⟩ => rfl | ⟨1, _⟩ => rfl
  rw [el, er]
  rfl

/-! ## The edge lists, degrees and weights, layer 1's copy and layer 2's -/

theorem ref_src (x5 : (⟨Cert.ReferenceIdeal.S2x800000, .i32⟩ : BufTy).Contents (Elt Ideal)) : val_main_v6 (F := Ideal) x5 = srcs x5 := rfl
theorem ref_dst (x5 : (⟨Cert.ReferenceIdeal.S2x800000, .i32⟩ : BufTy).Contents (Elt Ideal)) : val_main_v7 (F := Ideal) x5 = dsts x5 := rfl
theorem ref_deg (x5 : (⟨Cert.ReferenceIdeal.S2x800000, .i32⟩ : BufTy).Contents (Elt Ideal)) : val_main_v11 (F := Ideal) x5 = deg (val_main_v7 (F := Ideal) x5) := rfl
theorem ref_dinv (x5 : (⟨Cert.ReferenceIdeal.S2x800000, .i32⟩ : BufTy).Contents (Elt Ideal)) : val_main_v15 (F := Ideal) x5 = dinv (val_main_v11 (F := Ideal) x5) := rfl
theorem ref_nrm0 (x5 : (⟨Cert.ReferenceIdeal.S2x800000, .i32⟩ : BufTy).Contents (Elt Ideal)) : val_main_v30 (F := Ideal) x5
    = weights (val_main_v15 (F := Ideal) x5) (val_main_v6 (F := Ideal) x5) (val_main_v7 (F := Ideal) x5) := rfl
theorem ref_nrm (x5 : (⟨Cert.ReferenceIdeal.S2x800000, .i32⟩ : BufTy).Contents (Elt Ideal)) : val_main_v30 (F := Ideal) x5 = nrm (srcs x5) (dsts x5) := by
  rw [ref_nrm0, ref_dinv, ref_deg, ref_src, ref_dst]; rfl

theorem ref_src' (x5 : (⟨Cert.ReferenceIdeal.S2x800000, .i32⟩ : BufTy).Contents (Elt Ideal)) : val_main_v49 (F := Ideal) x5 = srcs x5 := rfl
theorem ref_dst' (x5 : (⟨Cert.ReferenceIdeal.S2x800000, .i32⟩ : BufTy).Contents (Elt Ideal)) : val_main_v50 (F := Ideal) x5 = dsts x5 := rfl
theorem ref_deg' (x5 : (⟨Cert.ReferenceIdeal.S2x800000, .i32⟩ : BufTy).Contents (Elt Ideal)) : val_main_v54 (F := Ideal) x5 = deg (val_main_v50 (F := Ideal) x5) := rfl
theorem ref_dinv' (x5 : (⟨Cert.ReferenceIdeal.S2x800000, .i32⟩ : BufTy).Contents (Elt Ideal)) : val_main_v58 (F := Ideal) x5 = dinv (val_main_v54 (F := Ideal) x5) := rfl
theorem ref_nrm0' (x5 : (⟨Cert.ReferenceIdeal.S2x800000, .i32⟩ : BufTy).Contents (Elt Ideal)) : val_main_v73 (F := Ideal) x5
    = weights (val_main_v58 (F := Ideal) x5) (val_main_v49 (F := Ideal) x5) (val_main_v50 (F := Ideal) x5) := rfl
theorem ref_nrm' (x5 : (⟨Cert.ReferenceIdeal.S2x800000, .i32⟩ : BufTy).Contents (Elt Ideal)) : val_main_v73 (F := Ideal) x5 = nrm (srcs x5) (dsts x5) := by
  rw [ref_nrm0', ref_dinv', ref_deg', ref_src', ref_dst']; rfl

/-! ## The layers -/

theorem ref_agg1 (x0 : (⟨Cert.ReferenceIdeal.S50000x128, .f32⟩ : BufTy).Contents (Elt Ideal)) (x1 : (⟨Cert.ReferenceIdeal.S128x256, .f32⟩ : BufTy).Contents (Elt Ideal)) (x2 : (⟨Cert.ReferenceIdeal.S256, .f32⟩ : BufTy).Contents (Elt Ideal)) (x5 : (⟨Cert.ReferenceIdeal.S2x800000, .i32⟩ : BufTy).Contents (Elt Ideal)) :
    val_main_v46 (F := Ideal) x0 x1 x2 x5
      = agg256 (val_main_v4 (F := Ideal) x0 x1) (val_main_v6 (F := Ideal) x5) (val_main_v7 (F := Ideal) x5) (val_main_v30 (F := Ideal) x5) x2 := rfl

theorem ref_hidden (x0 : (⟨Cert.ReferenceIdeal.S50000x128, .f32⟩ : BufTy).Contents (Elt Ideal)) (x1 : (⟨Cert.ReferenceIdeal.S128x256, .f32⟩ : BufTy).Contents (Elt Ideal)) (x2 : (⟨Cert.ReferenceIdeal.S256, .f32⟩ : BufTy).Contents (Elt Ideal)) (x5 : (⟨Cert.ReferenceIdeal.S2x800000, .i32⟩ : BufTy).Contents (Elt Ideal)) :
    val_main_v46 (F := Ideal) x0 x1 x2 x5 = hidden x0 x1 x2 x5 := by
  rw [ref_agg1, ref_lin1, ref_src, ref_dst, ref_nrm]; rfl

theorem ref_agg2 (x0 : (⟨Cert.ReferenceIdeal.S50000x128, .f32⟩ : BufTy).Contents (Elt Ideal)) (x1 : (⟨Cert.ReferenceIdeal.S128x256, .f32⟩ : BufTy).Contents (Elt Ideal)) (x2 : (⟨Cert.ReferenceIdeal.S256, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S2x800000, .i32⟩ : BufTy).Contents (Elt Ideal)) :
    val_main_v89 (F := Ideal) x0 x1 x2 x3 x4 x5
      = agg128 (val_main_v47 (F := Ideal) x0 x1 x2 x3 x5) (val_main_v49 (F := Ideal) x5) (val_main_v50 (F := Ideal) x5) (val_main_v73 (F := Ideal) x5) x4 := rfl

/-- The reference's result is the two layers of its arguments. -/
theorem ref_result (x0 : (⟨Cert.ReferenceIdeal.S50000x128, .f32⟩ : BufTy).Contents (Elt Ideal)) (x1 : (⟨Cert.ReferenceIdeal.S128x256, .f32⟩ : BufTy).Contents (Elt Ideal)) (x2 : (⟨Cert.ReferenceIdeal.S256, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S2x800000, .i32⟩ : BufTy).Contents (Elt Ideal)) :
    val_main_v89 (F := Ideal) x0 x1 x2 x3 x4 x5 = gcn x0 x1 x2 x3 x4 x5 := by
  rw [ref_agg2, ref_lin2, ref_hidden, ref_src', ref_dst', ref_nrm']; rfl

end Cert.Gcn

end
-- ==== Proof.lean ====
/-
  A two-layer graph convolution: the kernel program against its reference, over the extended reals.

  Both programs compute, from node features `emb`, weights `W1`, `W2`, biases `b1`, `b2` and an edge list, the function
  `gcn` (Proof/Layers.lean): a linear map, an aggregation over the self-looped graph with symmetric degree weights and a
  bias, twice. The kernel program computes each linear map in a region of ten grid points, each multiplying a block of
  5000 rows by the whole weight matrix on the matrix unit after a change to bf16, which over the extended reals changes
  nothing; the ten written blocks are the blocks of the whole product (Proof/Layer1Rows.lean, Proof/Layer2Rows.lean). The
  reference computes each linear map as one host product, the same sum (Proof/RefLayers.lean). The graph side is the same
  host operations in both; the kernel program builds the edge lists and weights once, the reference once per layer, from
  the same edge list. No law beyond reading both sides as these sums is used, so the inputs' finiteness is not needed.
-/
import proofs.«169751_j70755291234308_1_alg».proof.Defs
import proofs.«169751_j70755291234308_1_alg».proof.Proof.Gen.Kernel
import proofs.«169751_j70755291234308_1_alg».proof.Proof.Gen.Kernel.Frame
import proofs.«169751_j70755291234308_1_alg».proof.Proof.Gen.KernelIdeal
import proofs.«169751_j70755291234308_1_alg».proof.Proof.Gen.KernelIdeal.Frame
import proofs.«169751_j70755291234308_1_alg».proof.Proof.Gen.ReferenceIdeal
import proofs.«169751_j70755291234308_1_alg».proof.Proof.Gen.Pre_finite_inputs
import proofs.«169751_j70755291234308_1_alg».proof.Proof.KernelRun
import proofs.«169751_j70755291234308_1_alg».proof.Proof.Boundaries
import proofs.«169751_j70755291234308_1_alg».proof.Proof.RefRun
import proofs.«169751_j70755291234308_1_alg».proof.Proof.RefRead
import proofs.«169751_j70755291234308_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the six arguments, both programs end with `gcn` of the arguments in their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Gcn.result_eq m ρ c), (h c).2⟩)
      (Cert.Gcn.kernel_run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v89_eq, Cert.Gcn.ref_result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
